-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x768 .f32 .bf16
  ∧ IdealRules.truncf_extf.Statement Cert.KernelIdeal.S512x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S768x768 : Shape := ⟨2, ![768, 768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S64x512x768 .f32) (main_arg1 : FVec F S768x768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S64x512x768 : Shape := ⟨3, ![64, 512, 768]⟩
abbrev S768x768 : Shape := ⟨2, ![768, 768]⟩
abbrev S64x512x512 : Shape := ⟨3, ![64, 512, 512]⟩
abbrev S2x512x768 : Shape := ⟨3, ![2, 512, 768]⟩
abbrev S2x512x512 : Shape := ⟨3, ![2, 512, 512]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 5
  | .vmem => 5
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S768x768, .f32⟩
  | .hbm, ⟨3, _⟩ => ⟨S768x768, .bf16⟩
  | .hbm, ⟨4, _⟩ => ⟨S64x512x512, .f32⟩
  | .local _ .vmem, ⟨0, _⟩ => ⟨S2x512x768, .f32⟩
  | .local _ .vmem, ⟨1, _⟩ => ⟨S2x512x768, .f32⟩
  | .local _ .vmem, ⟨2, _⟩ => ⟨S768x768, .bf16⟩
  | .local _ .vmem, ⟨3, _⟩ => ⟨S2x512x512, .f32⟩
  | .local _ .vmem, ⟨4, _⟩ => ⟨S2x512x512, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S768x768_S768x768_1_0 : S768x768.Transposes [1, 0] S768x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S2x512x768_S1x512x768_0_0_0 : ∀ a, (![0, 0, 0] : Fin 3 → Nat) a + S1x512x768.size a ≤ S2x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512x512_S1x512x512 : S512x512.ShapeCasts S1x512x512
  inb_S2x512x768_S1x512x768_1_0_0 : ∀ a, (![1, 0, 0] : Fin 3 → Nat) a + S1x512x768.size a ≤ S2x512x768.size a
  inb_S2x512x512_S1x512x512_1_0_0 : ∀ a, (![1, 0, 0] : Fin 3 → Nat) a + S1x512x512.size a ≤ S2x512x512.size a
  dot_S512x768_S768x768_S512x768_1_0_0_1_n_n_wf : DotDims.WF S512x768 S768x768 S512x768 [1] [0] [0] [1] [] []
  dot_S512x768_S512x768_S512x512_1_1_0_0_n_n_wf : DotDims.WF S512x768 S512x768 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x768.size a ≤ S64x512x768.size a
  hwx0_0 : ∀ i : grid0.Coords, EltTy.bits .f32 = 32 ∨ (Rect.block (s := S64x512x768) S2x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S64x512x512.size a
  hwx0_2 : ∀ i : grid0.Coords, EltTy.bits .f32 = 32 ∨ (Rect.block (s := S64x512x512) S2x512x512.size (cc0_transform_2 i) (hinb0_2 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf

abbrev win0_0 : Pipeline.Window sig grid0 :=
  Pipeline.Window.ofSpec (Memref.whole main_arg0) S2x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S768x768 : Shape := ⟨2, ![768, 768]⟩
abbrev S_ : Shape := ⟨0, ![]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S64x512x768, .f32⟩
  | .hbm, ⟨3, _⟩ => ⟨S64x512x768, .f32⟩
  | .hbm, ⟨4, _⟩ => ⟨S_, .f32⟩
  | .hbm, ⟨5, _⟩ => ⟨S64x512, .f32⟩
  | .hbm, ⟨6, _⟩ => ⟨S64x512x512, .f32⟩
  | .hbm, ⟨7, _⟩ => ⟨S64x512x1, .f32⟩
  | .hbm, ⟨8, _⟩ => ⟨S64x1x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S64x512x512, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S64x512x768_S64x512_d2 : S64x512x768.ReducesTo [2] S64x512
  h_S_ : 0 < S_.numel
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  dot_S64x512x768_S768x768_S64x512x768_2_1_01_0_n_n_wf : DotDims.WF S64x512x768 S768x768 S64x512x768 [2] [1] [0, 1] [0] [] []
  dot_S64x512x768_S64x512x768_S64x512x512_2_2_1_1_0_0_wf : DotDims.WF S64x512x768 S64x512x768 S64x512x512 [2] [2] [1] [1] [0] [0]

variable [Facts₀]

def dot_S64x512x768_S768x768_S64x512x768_2_1_01_0_n_n : DotDims S64x512x768 S768x768 S64x512x768 where
  lhsContracting := [2]
  rhsContracting := [1]
  lhsNonContracting := [0, 1]
  rhsNonContracting := [0]
  lhsBatch := []
  rhsBatch := []
  wf := dot_S64x512x768_S768x768_S64x512x768_2_1_01_0_n_n_wf
def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf

class Facts : Prop extends Facts₀ where

variable [Facts]
-- ==== Proof.Spec.lean ====
/-
  The function both programs compute, stated once over the extended reals.

  The inputs are `x : [64, 512, 768]` (64 batches of 512 points with 768 coordinates) and the square probe matrix
  `b : [768, 768]`. Each point is projected, `p[s, g] = ∑ h, x[s, h] · b[g, h]`, and the result at `(n, s, t)` is the
  squared distance of the projected points `s` and `t` of batch `n`, written through the polarization identity
  `|p_s|² + |p_t|² − 2 · ⟨p_s, p_t⟩`. Both programs evaluate exactly this expression (the same sums, the same literal
  `2`), so no law of the extended reals beyond the shape of the expression is needed.
-/
import Idealize.ShloMosaic.PureOps.Ideal
import Idealize.ShloMosaic.Lib.ValueIdx

noncomputable section

namespace Cert.PairDist

open Idealize.ShloMosaic Idealize.ShloMosaic.ValueIdx

/-- The projection of the rows of `X` by a matrix given in the layout `Bt[h, g]` (contraction index first):
    `proj X Bt s g = ∑ h, X[s, h] · Bt[h, g]`. -/
def proj {S K L : Nat} (X : Fin S → Fin K → EReal) (Bt : Fin K → Fin L → EReal) (s : Fin S) (g : Fin L) : EReal :=
  ∑ h : Fin K, X s h * Bt h g

/-- The polarization form of the squared distance of rows `s` and `t` of `P`, with the factor of the inner product
    a parameter `c`: `(|P_s|² + |P_t|²) − c · ⟨P_s, P_t⟩`. -/
def dist {S L : Nat} (c : EReal) (P : Fin S → Fin L → EReal) (s t : Fin S) : EReal :=
  ((∑ g : Fin L, P s g * P s g) + ∑ g : Fin L, P t g * P t g) - c * ∑ g : Fin L, P s g * P t g

/-- The literal `2.0` both programs multiply the inner product by (the same binary word on both sides: it is never
    evaluated). -/
abbrev two : EReal := Ideal.ofBits .f32 0x40000000#32

/-- The whole result array as one function of the two argument arrays, index by index: at `(n, s, t)` the
    polarization form over the projections of batch `n`'s points by `b` (read as `Bt[h, g] = b[g, h]`). -/
def G (x : (⟨3, ![64, 512, 768]⟩ : Shape).Idx → EReal) (b : (⟨2, ![768, 768]⟩ : Shape).Idx → EReal) :
    (⟨3, ![64, 512, 512]⟩ : Shape).Idx → EReal :=
  fun i => dist two (proj (fun s h => x (ix3 (i 0) s h)) (fun h g => b (ix2 g h))) (i 1) (i 2)

end Cert.PairDist

end
-- ==== Proof.RefValue.lean ====
/-
  The reference's result, read index by index, is the specification `Cert.PairDist.G` of its two arguments.

  The reference projects every point by a `dot_general` contracting the coordinate axis of `x` with the second axis
  of `b` (`p[n, s, g] = ∑ h, x[n, s, h] · b[g, h]`), sums the squares of each projected point, takes the batched inner
  products `∑ g, p[n, s, g] · p[n, t, g]`, broadcasts the squared norms along rows and along columns, and combines
  them as `(sq[n, s] + sq[n, t]) − 2 · gram[n, s, t]`. Reading each stage at an index gives the polarization form
  directly; the host sum's initial value is the zero word, which adds nothing.
-/
import proofs.«101520_j86912958202203_2_alg».proof.Proof.Gen.ReferenceIdeal.Read
import proofs.«101520_j86912958202203_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.PairDist

/-- A projected point's coordinate, as the reference's first `dot_general` computes it, is `proj` of the point's batch. -/
theorem projected_eq (x0 : (⟨S64x512x768, .f32⟩ : BufTy).Contents (Elt Ideal)) (x1 : (⟨S768x768, .f32⟩ : BufTy).Contents (Elt Ideal))
    (q : S64x512x768.Idx) :
    val_main_v0 (F := Ideal) x0 x1 q = proj (fun s h => x0 (ix3 (q 0) s h)) (fun h g => x1 (ix2 g h)) (q 1) (q 2) := by
  rw [val_main_v0_apply]
  unfold proj
  refine Finset.sum_congr rfl fun k _ => ?_
  exact congrArg₂ (· * ·)
    (congrArg x0 (funext fun a => by match a with | ⟨0, _⟩ => rfl | ⟨1, _⟩ => rfl | ⟨2, _⟩ => rfl))
    (congrArg x1 (funext fun a => by match a with | ⟨0, _⟩ => rfl | ⟨1, _⟩ => rfl))

/-- The reference's result is the specification, index by index. -/
theorem result_eq (x0 : (⟨S64x512x768, .f32⟩ : BufTy).Contents (Elt Ideal)) (x1 : (⟨S768x768, .f32⟩ : BufTy).Contents (Elt Ideal)) :
    val_main_v11 (F := Ideal) x0 x1 = G x0 x1 := by
  funext i
  simp only [val_main_v11_apply, val_main_v8_apply, val_main_v10_apply, val_main_v6_apply, val_main_v7_apply,
    val_main_v4_apply, val_main_v5_apply, val_main_v2_apply, val_main_v3_apply, val_main_v9_apply,
    val_main_cst_0_apply, val_main_cst_apply, val_main_v1_apply, projected_eq,
    Ideal.subf_def, Ideal.addf_def, Ideal.mulf_def, Ideal.ofBits_def, Ideal.ofBits_zero_f32, zero_add]
  rfl

end Cert.ReferenceIdeal.RefValue

end
-- ==== Proof.LibKeepdims.lean ====
/-
  Column ("keepdims") layout operations read at an index.

  A sum over the last axis kept as a unit axis produces a column `[a, 1]`; kernels then re-lay that column: a vector
  `[a]` cast to the column `[a, 1]`, and the column broadcast along its unit axis to `[a, b]`. Each lemma reads one of
  these operations at an index written by coordinates, in the style of the library's leading-unit-axis lemmas
  (the transposed column `[a, 1] → [1, a]` and the row broadcast `[1, b] → [a, b]` are the library's
  `transpose_ix2_apply` and `broadcastTo_1b_ab_apply`). General in the extents.
-/
import Idealize.ShloMosaic.Lib.Pipeline.Value
import Idealize.ShloMosaic.Lib.ValueIdx
import Idealize.ShloMosaic.Lib.ValueLayout

namespace Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the unit axis is
    repeated along the columns. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelTile.lean ====
/-
  One batch's `[512, 512]` tile of the kernel body, read index by index at the extended reals.

  For each of the two batches of a block the body takes the batch's `[512, 768]` slab `X` of points and the resident
  matrix `W[h, g]` (the transposed probe matrix), and computes: the projection `P = X · W` on the matrix unit into a zero
  accumulator; the squared norm of each projected point as a lane sum of `P ⊙ P`, kept as a column; the Gram matrix
  `P · Pᵀ` as a second matrix product contracting the coordinate axis of both operands; and the combination
  `(column + columnᵀ) − 2 · Gram`. The changes of float format in between are the identity on the extended reals.
  Here the four stages are named, the payload is shown to be their composition, each stage is read at an index, and
  the tile's entry `(s, t)` comes out as the polarization form `Cert.PairDist.dist` over `Cert.PairDist.proj X W`.
-/
import proofs.«101520_j86912958202203_2_alg».proof.Proof.Gen.KernelIdeal.Skeleton
import proofs.«101520_j86912958202203_2_alg».proof.Proof.Spec
import proofs.«101520_j86912958202203_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx Cert.PairDist

/-! ## The stages -/

/-- The projection: the slab, narrowed to the matrix unit's input format, times `W`, into a zero accumulator. -/
def projected (W : FVec Ideal S768x768 .bf16) (X : FVec Ideal S512x768 .f32) : FVec Ideal S512x768 .f32 :=
  matmul dot_S512x768_S768x768_S512x768_1_0_0_1_n_n none (truncf .bf16 X bitsLt_bf16_f32) W
    (constant (F := Ideal) S512x768 .f32 0x00000000#32)

/-- The squared norms of the projected points, as a column. -/
def sqColumn (P : FVec Ideal S512x768 .f32) : FVec Ideal S512x1 .f32 :=
  shapeCast S512x1
    (multiReduction (F := Ideal) .add [1] S512 (mulf P P) 0x00000000#32 reduces_S512x768_S512 (.inl rfl) rfl)
    shapeCasts_S512_S512x1

/-- The Gram matrix of the projected points: both operands the narrowed projection, contracted over the coordinates. -/
def gramMatrix (P : FVec Ideal S512x768 .f32) : FVec Ideal S512x512 .f32 :=
  matmul dot_S512x768_S512x768_S512x512_1_1_0_0_n_n none (truncf .bf16 P bitsLt_bf16_f32) (truncf .bf16 P bitsLt_bf16_f32)
    (constant (F := Ideal) S512x512 .f32 0x00000000#32)

/-- The combination: the column along the rows plus its transpose along the columns, minus twice the Gram matrix. -/
def combine (q : FVec Ideal S512x1 .f32) (g : FVec Ideal S512x512 .f32) : FVec Ideal S512x512 .f32 :=
  subf
    (addf (broadcastTo S512x512 q broadcasts_S512x1_S512x512)
      (broadcastTo S512x512 (transpose S1x512 [1, 0] q transposes_S512x1_p1_0_S1x512) broadcasts_S1x512_S512x512))
    (mulf (broadcast S512x512 (Scalar.ofBits (F := Ideal) .f32 0x40000000#32)) g)

/-- The tile payload is the composition of the stages on the batch's slab (the loaded `[1, 512, 768]` block with its
    unit axis dropped) and the loaded matrix. -/
theorem pay4_eq (v0 : Vec Ideal S768x768 .bf16) (v : Vec Ideal S1x512x768 .f32) :
    k0_pay4 (F := Ideal) v0 v
      = combine (sqColumn (projected (k0_pay2 v0) (shapeCast S512x768 v shapeCasts_S1x512x768_S512x768)))
          (gramMatrix (projected (k0_pay2 v0) (shapeCast S512x768 v shapeCasts_S1x512x768_S512x768))) := rfl

/-- The first batch's stored payload is the same tile with a unit axis put in front. -/
theorem pay3_eq (v0 : Vec Ideal S768x768 .bf16) (v : Vec Ideal S1x512x768 .f32) :
    k0_pay3 (F := Ideal) v0 v = k0_pay1 (k0_pay4 v0 v) := rfl

/-! ## The two matrix products' operand indices -/

theorem projL0 (j : S512x768.Idx) (q : dot_S512x768_S768x768_S512x768_1_0_0_1_n_n.contr.Idx) :
    (dot_S512x768_S768x768_S512x768_1_0_0_1_n_n.lhsIdx j q 0).val = (j 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
theorem projL1 (j : S512x768.Idx) (q : dot_S512x768_S768x768_S512x768_1_0_0_1_n_n.contr.Idx) :
    (dot_S512x768_S768x768_S512x768_1_0_0_1_n_n.lhsIdx j q 1).val = (q ⟨0, by decide⟩).val :=
  dot_S512x768_S768x768_S512x768_1_0_0_1_n_n.lhsIdx_val_of_single rfl j q
theorem projR0 (j : S512x768.Idx) (q : dot_S512x768_S768x768_S512x768_1_0_0_1_n_n.contr.Idx) :
    (dot_S512x768_S768x768_S512x768_1_0_0_1_n_n.rhsIdx j q 0).val = (q ⟨0, by decide⟩).val :=
  dot_S512x768_S768x768_S512x768_1_0_0_1_n_n.rhsIdx_val_of_single rfl j q
theorem projR1 (j : S512x768.Idx) (q : dot_S512x768_S768x768_S512x768_1_0_0_1_n_n.contr.Idx) :
    (dot_S512x768_S768x768_S512x768_1_0_0_1_n_n.rhsIdx j q 1).val = (j 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

theorem gramL0 (j : S512x512.Idx) (q : dot_S512x768_S512x768_S512x512_1_1_0_0_n_n.contr.Idx) :
    (dot_S512x768_S512x768_S512x512_1_1_0_0_n_n.lhsIdx j q 0).val = (j 0).val := by
  unfold DotDims.lhsIdx
  rw [dif_neg (show ¬(0 : Fin S512x768.rank) ∈ dot_S512x768_S512x768_S512x512_1_1_0_0_n_n.lhsBatch by decide),
    dif_pos (show (0 : Fin S512x768.rank) ∈ dot_S512x768_S512x768_S512x512_1_1_0_0_n_n.lhsNonContracting by decide)]
  rfl
theorem gramL1 (j : S512x512.Idx) (q : dot_S512x768_S512x768_S512x512_1_1_0_0_n_n.contr.Idx) :
    (dot_S512x768_S512x768_S512x512_1_1_0_0_n_n.lhsIdx j q 1).val = (q ⟨0, by decide⟩).val :=
  dot_S512x768_S512x768_S512x512_1_1_0_0_n_n.lhsIdx_val_of_single rfl j q
theorem gramR0 (j : S512x512.Idx) (q : dot_S512x768_S512x768_S512x512_1_1_0_0_n_n.contr.Idx) :
    (dot_S512x768_S512x768_S512x512_1_1_0_0_n_n.rhsIdx j q 0).val = (j 1).val := by
  unfold DotDims.rhsIdx
  rw [dif_neg (show ¬(0 : Fin S512x768.rank) ∈ dot_S512x768_S512x768_S512x512_1_1_0_0_n_n.rhsBatch by decide),
    dif_pos (show (0 : Fin S512x768.rank) ∈ dot_S512x768_S512x768_S512x512_1_1_0_0_n_n.rhsNonContracting by decide)]
  rfl
theorem gramR1 (j : S512x512.Idx) (q : dot_S512x768_S512x768_S512x512_1_1_0_0_n_n.contr.Idx) :
    (dot_S512x768_S512x768_S512x512_1_1_0_0_n_n.rhsIdx j q 1).val = (q ⟨0, by decide⟩).val :=
  dot_S512x768_S512x768_S512x512_1_1_0_0_n_n.rhsIdx_val_of_single rfl j q

/-! ## Each stage at an index -/

/-- The projection at `(s, g)` is the sum over the 768 coordinates of the point's coordinate times the matrix entry. -/
theorem projected_apply (W : FVec Ideal S768x768 .bf16) (X : FVec Ideal S512x768 .f32) (s : Fin 512) (g : Fin 768) :
    projected W X (ix2 s g) = ∑ h : Fin 768, X (ix2 s h) * W (ix2 h g) := by
  unfold projected
  simp only [matmul]
  rw [Ideal.matmul_constant_zero_apply,
    ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 s g)
      ((contrEquiv1 dot_S512x768_S768x768_S512x768_1_0_0_1_n_n 768 rfl rfl).symm k) = ix2 s k := funext fun a => Fin.ext (by
    match a with
    | ⟨0, _⟩ => exact projL0 _ _
    | ⟨1, _⟩ => exact (projL1 _ _).trans hk)
  have er : dot_S512x768_S768x768_S512x768_1_0_0_1_n_n.rhsIdx (ix2 s g)
      ((contrEquiv1 dot_S512x768_S768x768_S512x768_1_0_0_1_n_n 768 rfl rfl).symm k) = ix2 k g := funext fun a => Fin.ext (by
    match a with
    | ⟨0, _⟩ => exact (projR0 _ _).trans hk
    | ⟨1, _⟩ => exact projR1 _ _)
  rw [el, er]
  rfl

/-- The Gram matrix at `(s, t)` is the inner product of the projected points `s` and `t`. -/
theorem gramMatrix_apply (P : FVec Ideal S512x768 .f32) (s t : Fin 512) :
    gramMatrix P (ix2 s t) = ∑ g : Fin 768, P (ix2 s g) * P (ix2 t g) := by
  unfold gramMatrix
  simp only [matmul]
  rw [Ideal.matmul_constant_zero_apply,
    ← Equiv.sum_comp (contrEquiv1 dot_S512x768_S512x768_S512x512_1_1_0_0_n_n 768 rfl rfl).symm]
  refine Finset.sum_congr rfl fun k _ => ?_
  have hk := contrEquiv1_symm_val dot_S512x768_S512x768_S512x512_1_1_0_0_n_n 768 rfl rfl k
  have el : dot_S512x768_S512x768_S512x512_1_1_0_0_n_n.lhsIdx (ix2 s t)
      ((contrEquiv1 dot_S512x768_S512x768_S512x512_1_1_0_0_n_n 768 rfl rfl).symm k) = ix2 s k := funext fun a => Fin.ext (by
    match a with
    | ⟨0, _⟩ => exact gramL0 _ _
    | ⟨1, _⟩ => exact (gramL1 _ _).trans hk)
  have er : dot_S512x768_S512x768_S512x512_1_1_0_0_n_n.rhsIdx (ix2 s t)
      ((contrEquiv1 dot_S512x768_S512x768_S512x512_1_1_0_0_n_n 768 rfl rfl).symm k) = ix2 t k := funext fun a => Fin.ext (by
    match a with
    | ⟨0, _⟩ => exact gramR0 _ _
    | ⟨1, _⟩ => exact (gramR1 _ _).trans hk)
  rw [el, er]
  rfl

/-- The column's entry of row `s` is the sum of the squares of the projected point's coordinates. -/
theorem sqColumn_apply (P : FVec Ideal S512x768 .f32) (s : Fin 512) (u : Fin 1) :
    sqColumn P (ix2 s u) = ∑ g : Fin 768, P (ix2 s g) * P (ix2 s g) := by
  unfold sqColumn
  refine (shapeCast_a_a1_apply _ _ s u).trans ?_
  refine (Ideal.multiReduction_add_single (mulf P P) 0x00000000#32 reduces_S512x768_S512 (.inl rfl) rfl (ix1 s)).trans ?_
  refine Finset.sum_congr rfl fun g _ => ?_
  have e : reduces_S512x768_S512.lift (ix1 s) g = ix2 s g :=
    funext fun a => Fin.ext (by match a with | ⟨0, _⟩ => rfl | ⟨1, _⟩ => rfl)
  rw [e]
  rfl

/-- The combination at `(s, t)`: the column's entries of rows `s` and `t` added, minus the literal `2` times the
    Gram entry. -/
theorem combine_apply (q : FVec Ideal S512x1 .f32) (g : FVec Ideal S512x512 .f32) (s t : Fin 512) :
    combine q g (ix2 s t) = (q (ix2 s (0 : Fin 1)) + q (ix2 t (0 : Fin 1))) - two * g (ix2 s t) := by
  unfold combine
  rw [subf_apply, addf_apply, mulf_apply, broadcast_apply, broadcastTo_a1_ab_apply, broadcastTo_1b_ab_apply,
    transpose_ix2_apply]
  rfl

/-! ## The tile -/

/-- THE TILE AT AN INDEX: entry `(s, t)` of the payload is the polarization form over the projections of the loaded
    slab's points by the loaded matrix. -/
theorem pay4_apply (v0 : Vec Ideal S768x768 .bf16) (v : Vec Ideal S1x512x768 .f32) (s t : Fin 512) :
    k0_pay4 (F := Ideal) v0 v (ix2 s t)
      = dist two (proj (fun s h => v (ix3 (0 : Fin 1) s h)) (fun h g => v0 (ix2 h g))) s t := by
  rw [pay4_eq, combine_apply, sqColumn_apply, sqColumn_apply, gramMatrix_apply]
  unfold PairDist.dist PairDist.proj
  simp only [projected_apply, shapeCast_1ab_ab_apply, k0_pay2, shapeCast_self]

/-- The stored block puts a unit axis in front of the tile. -/
theorem pay1_apply (w : FVec Ideal S512x512 .f32) (u : Fin 1) (s t : Fin 512) :
    k0_pay1 (F := Ideal) w (ix3 u s t) = w (ix2 s t) := by
  unfold k0_pay1
  exact shapeCast_ab_1ab_apply w _ u s t

end Cert.KernelIdeal.Tile

end
-- ==== Proof.KernelBlock.lean ====
/-
  What the kernel body leaves in the output block, as one function of the two input blocks.

  A grid step holds two batches. The body stores two `[1, 512, 512]` pieces into the `[2, 512, 512]` output block:
  batch 0's tile at offset 0 and batch 1's at offset 1 along the batch axis, each computed from the matching
  `[1, 512, 768]` slice of the `[2, 512, 768]` input block and from the whole resident matrix. So the block after the body
  is, at `(n, s, t)`, the polarization form over the projections of slice `n`'s points: both pieces are tiles of this one
  function, and the two pieces cover the block.
-/
import proofs.«101520_j86912958202203_2_alg».proof.Proof.Gen.KernelIdeal.Frame
import proofs.«101520_j86912958202203_2_alg».proof.Proof.KernelTile

noncomputable section

namespace Cert.KernelIdeal.Tile

open Cert.KernelIdeal Cert.KernelIdeal.Gen
open Idealize.ShloMosaic Idealize.ShloMosaic.ValueIdx Cert.PairDist

/-- The output block as a function of the input blocks: at `(n, s, t)` the polarization form over the projections of
    the points of slice `n` of the `x` block by the matrix block (layout `[h, g]`). -/
def blockFn (X0 : Vec Ideal S2x512x768 .f32) (X1 : Vec Ideal S768x768 .bf16) : S2x512x512.Idx → EReal :=
  fun y => PairDist.dist two (PairDist.proj (fun s h => X0 (ix3 (y 0) s h)) (fun h g => X1 (ix2 h g))) (y 1) (y 2)

/-- `blockFn` at an index whose coordinates are known. -/
theorem blockFn_at (X0 : Vec Ideal S2x512x768 .f32) (X1 : Vec Ideal S768x768 .bf16) (y : S2x512x512.Idx)
    (n : Fin 2) (s t : Fin 512) (h0 : (y 0).val = n.val) (h1 : (y 1).val = s.val) (h2 : (y 2).val = t.val) :
    blockFn X0 X1 y
      = PairDist.dist two (PairDist.proj (fun s h => X0 (ix3 n s h)) (fun h g => X1 (ix2 h g))) s t := by
  have e : y = ix3 n s t := funext fun a => Fin.ext (by
    match a with
    | ⟨0, _⟩ => exact h0
    | ⟨1, _⟩ => exact h1
    | ⟨2, _⟩ => exact h2)
  subst e
  rfl

theorem zeros2 : (![0, 0] : Fin 2 → Nat) = fun _ => 0 := funext fun a => by fin_cases a <;> rfl

/-- The body's load of the matrix block reads all of it. -/
theorem ld_matrix (X1 : Vec Ideal S768x768 .bf16) : View.ld X1 r0_0 = X1 :=
  View.ld_unit_zero (S := S768x768) zeros2 _ X1

/-- The body's first slab load reads slice 0 of the `x` block; -/
theorem ld_slab0 (X0 : Vec Ideal S2x512x768 .f32) (u : Fin 1) (s : Fin 512) (h : Fin 768) :
    View.ld X0 r0_1 (ix3 u s h) = X0 (ix3 (0 : Fin 2) s h) :=
  congrArg X0 (funext fun a => Fin.ext (by
    match a with
    | ⟨0, _⟩ => show 0 + 1 * u.val = 0; omega
    | ⟨1, _⟩ => show 0 + 1 * s.val = s.val; omega
    | ⟨2, _⟩ => show 0 + 1 * h.val = h.val; omega))

/-- its second slab load reads slice 1. -/
theorem ld_slab1 (X0 : Vec Ideal S2x512x768 .f32) (u : Fin 1) (s : Fin 512) (h : Fin 768) :
    View.ld X0 r0_3 (ix3 u s h) = X0 (ix3 (1 : Fin 2) s h) :=
  congrArg X0 (funext fun a => Fin.ext (by
    match a with
    | ⟨0, _⟩ => show 1 + 1 * u.val = 1; omega
    | ⟨1, _⟩ => show 0 + 1 * s.val = s.val; omega
    | ⟨2, _⟩ => show 0 + 1 * h.val = h.val; omega))

/-- THE BLOCK AFTER THE BODY is `blockFn` of the input blocks: each of the two stored pieces is the tile of it under
    the piece's rectangle, and the pieces cover the block. -/
theorem out_eq (X0 : Vec Ideal S2x512x768 .f32) (X1 : Vec Ideal S768x768 .bf16) :
    out0_2 (F := Ideal) X0 X1 = blockFn X0 X1 := by
  funext y
  unfold out0_2
  refine View.canon_apply_of_pieces (Val := Elt Ideal) (blockFn X0 X1) _ ?_ y (cover0_2 _ _ y)
  intro p hp x
  simp only [List.mem_cons, List.mem_singleton, List.not_mem_nil, or_false] at hp
  rcases hp with rfl | rfl
  · obtain ⟨u, s, t, rfl⟩ : ∃ (u : Fin 1) (s t : Fin 512), x = ix3 u s t := ⟨x 0, x 1, x 2, eq_ix3 x⟩
    show k0_pay1 (k0_pay4 (View.ld X1 r0_0) (View.ld X0 r0_3)) (ix3 u s t) = blockFn X0 X1 (r0_4.emb (ix3 u s t))
    rw [pay1_apply, pay4_apply,
      blockFn_at X0 X1 _ 1 s t (by show 1 + 1 * u.val = 1; omega) (by show 0 + 1 * s.val = s.val; omega)
        (by show 0 + 1 * t.val = t.val; omega)]
    exact congrArg₂ (fun X B => PairDist.dist two (PairDist.proj X B) s t)
      (funext fun s' => funext fun h => ld_slab1 X0 0 s' h)
      (funext fun h => funext fun g => congrFun (ld_matrix X1) (ix2 h g))
  · obtain ⟨u, s, t, rfl⟩ : ∃ (u : Fin 1) (s t : Fin 512), x = ix3 u s t := ⟨x 0, x 1, x 2, eq_ix3 x⟩
    show k0_pay3 (View.ld X1 r0_0) (View.ld X0 r0_1) (ix3 u s t) = blockFn X0 X1 (r0_2.emb (ix3 u s t))
    rw [pay3_eq, pay1_apply, pay4_apply,
      blockFn_at X0 X1 _ 0 s t (by show 0 + 1 * u.val = 0; omega) (by show 0 + 1 * s.val = s.val; omega)
        (by show 0 + 1 * t.val = t.val; omega)]
    exact congrArg₂ (fun X B => PairDist.dist two (PairDist.proj X B) s t)
      (funext fun s' => funext fun h => ld_slab0 X0 0 s' h)
      (funext fun h => funext fun g => congrFun (ld_matrix X1) (ix2 h g))

end Cert.KernelIdeal.Tile

end
-- ==== Proof.KernelArray.lean ====
/-
  From blocks to the whole result array of the kernel.

  The grid has 32 points; point `t` stages batches `2t` and `2t + 1` of `x` (block index `t` along the batch axis, 0 on
  the others), the whole transposed matrix (block index 0 at every point), and writes back batches `2t` and `2t + 1` of
  the result. So what point `t` writes back is block `t` of ONE function of the arrays the region finds — the
  polarization form over the projections of batch `i₀`'s points by the staged matrix —, the 32 blocks cover the
  result array (index `i` lies in the block of point `i₀ / 2`), and the array after the run is that function. The staged
  matrix is what the host operations before the region wrote: the transpose of `b`, narrowed (the identity on the
  extended reals), so its entry `(h, g)` is `b[g, h]` and the function is the specification `Cert.PairDist.G` of the two
  arguments.
-/
import proofs.«101520_j86912958202203_2_alg».proof.Proof.Gen.KernelIdeal.Value
import proofs.«101520_j86912958202203_2_alg».proof.Proof.KernelBlock
import Idealize.ShloMosaic.Lib.StableHlo.Run

noncomputable section

namespace Cert.KernelIdeal.Whole

open Cert.KernelIdeal Cert.KernelIdeal.Gen Cert.KernelIdeal.Tile
open Idealize.ShloMosaic Idealize.ShloMosaic.TcCoe Idealize.SL.Sem Idealize.ShloMosaic.ValueIdx Cert.PairDist
open Idealize.ShloMosaic.Pipeline (Dat)

variable (m : (ℓ : Loc nD τ sig) → Buf (Elt Ideal) ℓ) (ρ : Dev nD → PrngReg)

/-- The result array as a function of the `x` array and of the STAGED matrix (layout `[h, g]`). -/
def arrayFn (A0 : S64x512x768.Idx → EReal) (A1 : S768x768.Idx → EReal) : S64x512x512.Idx → EReal :=
  fun i => PairDist.dist two (PairDist.proj (fun s h => A0 (ix3 (i 0) s h)) (fun h g => A1 (ix2 h g))) (i 1) (i 2)

/-- A block of `blockFn` is a block of `arrayFn` when the block's slices and the matrix block are read off the arrays
    where the index says: stated over variables, with the coordinates' relations as hypotheses. -/
theorem blockFn_eq_arrayFn (X0 : Vec Ideal S2x512x768 .f32) (X1 : Vec Ideal S768x768 .bf16)
    (A0 : S64x512x768.Idx → EReal) (A1 : S768x768.Idx → EReal) (y : S2x512x512.Idx) (i : S64x512x512.Idx)
    (h1 : (i 1).val = (y 1).val) (h2 : (i 2).val = (y 2).val)
    (hX : ∀ (s : Fin 512) (h : Fin 768), X0 (ix3 (y 0) s h) = A0 (ix3 (i 0) s h))
    (hW : ∀ (h g : Fin 768), X1 (ix2 h g) = A1 (ix2 h g)) :
    blockFn X0 X1 y = arrayFn A0 A1 i := by
  unfold blockFn arrayFn
  have e1 : y 1 = i 1 := Fin.ext h1.symm
  have e2 : y 2 = i 2 := Fin.ext h2.symm
  have eX : (fun (s : Fin 512) (h : Fin 768) => X0 (ix3 (y 0) s h)) = fun s h => A0 (ix3 (i 0) s h) :=
    funext fun s => funext fun h => hX s h
  have eW : (fun (h g : Fin 768) => X1 (ix2 h g)) = fun h g => A1 (ix2 h g) :=
    funext fun h => funext fun g => hW h g
  rw [eX, eW, e1, e2]

/-- The printed index maps, decided over the 32 grid points: the `x` window and the result window both sit at block
    `t` of the batch axis and block 0 of the others; the matrix window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `arrayFn` of the arrays as the region finds them. -/
theorem flushed_eq (c : Dev nD) (t : Fin cfg0.N) :
    (dats m 0 c).flushed 2 t
      = ((cfg0.win 2).blk t).view.read (Elt Ideal) (arrayFn (V m c main_arg0) (V m c main_v1)) := by
  rw [Value.flushed2, out_eq]
  obtain ⟨a0, a1, a2, b0, b1, c0, c1, c2⟩ := idx_facts t
  funext y
  show blockFn (iblk m c 0 t) (iblk m c 1 t) y
    = arrayFn (V m c main_arg0) (V m c main_v1) (((cfg0.win 2).blk t).view.emb y)
  refine blockFn_eq_arrayFn _ _ _ _ y _ ?_ ?_ (fun s h => ?_) (fun h g => ?_)
  · show win0_2.index t (1 : Fin 3) * 512 + 1 * (y 1).val = (y 1).val
    omega
  · show win0_2.index t (2 : Fin 3) * 512 + 1 * (y 2).val = (y 2).val
    omega
  · show V m c main_arg0 (((cfg0.win 0).blk t).view.emb (ix3 (y 0) s h)) = V m c main_arg0 _
    refine congrArg (V m c main_arg0) (funext fun a => Fin.ext ?_)
    match a with
    | ⟨0, _⟩ =>
      show win0_0.index t (0 : Fin 3) * 2 + 1 * (y 0).val = win0_2.index t (0 : Fin 3) * 2 + 1 * (y 0).val
      omega
    | ⟨1, _⟩ =>
      show win0_0.index t (1 : Fin 3) * 512 + 1 * s.val = s.val
      omega
    | ⟨2, _⟩ =>
      show win0_0.index t (2 : Fin 3) * 768 + 1 * h.val = h.val
      omega
  · show V m c main_v1 (((cfg0.win 1).blk t).view.emb (ix2 h g)) = V m c main_v1 _
    refine congrArg (V m c main_v1) (funext fun a => Fin.ext ?_)
    match a with
    | ⟨0, _⟩ =>
      show win0_1.index t (0 : Fin 2) * 768 + 1 * h.val = h.val
      omega
    | ⟨1, _⟩ =>
      show win0_1.index t (1 : Fin 2) * 768 + 1 * g.val = g.val
      omega

/-- An index of the result array is in point `t`'s block iff each coordinate is in the block's range on its axis. -/
theorem mem_blk (t : Fin cfg0.N) (i : S64x512x512.Idx) :
    i ∈ ((cfg0.win 2).blk t).view.set ↔ ∀ a : Fin 3, win0_2.index t a * S2x512x512.size a ≤ (i a).val
      ∧ (i a).val < win0_2.index t a * S2x512x512.size a + S2x512x512.size a := by
  show i ∈ ((View.whole main_v2).slice (win0_2.rect t)).set ↔ _
  rw [View.set_slice_whole, Rect.mem_set_unit]
  exact Iff.rfl

/-- Every pair of batches is some point's. -/
theorem idx_onto : ∀ q : Fin 32, ∃ t : Fin cfg0.N, win0_2.index t = ![q.val, 0, 0] :=
  (by decide +kernel : ∀ q : Fin 32, ∃ t : Fin grid0.N, win0_2.index t = ![q.val, 0, 0])

/-- THE COVER: index `i` of the result lies in the block of the point that holds batch `i₀`, namely `i₀ / 2`. -/
theorem cover (i : S64x512x512.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 512 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 2 ≤ (i 0).val ∧ (i 0).val < win0_2.index t (0 : Fin 3) * 2 + 2
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 512 ≤ (i 2).val ∧ (i 2).val < win0_2.index t (2 : Fin 3) * 512 + 512
    omega

/-- THE RESULT ARRAY after the run, in terms of the arrays the region finds. -/
theorem final (c : Dev nD) :
    (dats m 0 c).arrAt 2 cfg0.N = arrayFn (V m c main_arg0) (V m c main_v1) :=
  (dats m 0 c).arrAt_eq_of_cover 2 (arrayFn (V m c main_arg0) (V m c main_v1)) (fun t _ => flushed_eq m c t) cover

/-- The staged matrix is the transpose of the argument `b`, narrowed: what the two host operations before the region
    wrote. -/
theorem staged_matrix (c : Dev nD) :
    (V m c main_v1 : S768x768.Idx → EReal)
      = truncf (F := Ideal) .bf16
          (transpose S768x768 [1, 0] (m ((c : Thread nD τ).loc main_arg1)) transposes_S768x768_S768x768_1_0)
          bitsLt_bf16_f32 := by
  dsimp only [Gen.V, Gen.hostOps0]
  after_results

/-- So the function of the arrays the region finds is the specification of the two arguments: entry `(h, g)` of the
    staged matrix is `b[g, h]`. -/
theorem arrayFn_eq_G (c : Dev nD) :
    arrayFn (V m c main_arg0) (V m c main_v1)
      = G (m ((c : Thread nD τ).loc main_arg0)) (m ((c : Thread nD τ).loc main_arg1)) := by
  funext i
  unfold arrayFn G
  rw [V_main_arg0]
  have eW : (fun (h g : Fin 768) => V m c main_v1 (ix2 h g))
      = fun h g => m ((c : Thread nD τ).loc main_arg1) (ix2 g h) :=
    funext fun h => funext fun g => by
      rw [staged_matrix]
      exact transpose_ix2_apply (m ((c : Thread nD τ).loc main_arg1)) transposes_S768x768_S768x768_1_0 h g
  rw [eW]

/-- THE KERNEL'S RUN, READ: the result array ends at the specification of the arguments, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (arrayFn_eq_G m c)), (h c).2⟩)
    (Value.run_blocks m ρ)

end Cert.KernelIdeal.Whole

end
-- ==== Proof.lean ====
/-
  Pairwise squared distances of projected points: the kernel against its reference, over the extended reals.

  Inputs: `x : [64, 512, 768]` (64 batches of 512 points) and a square probe matrix `b : [768, 768]`. Both programs
  project every point, `p[s, g] = ∑ h, x[s, h] · b[g, h]`, and return for each batch the matrix of squared distances of
  the projected points through the polarization identity
      `d[s, t] = (|p_s|² + |p_t|²) − 2 · ⟨p_s, p_t⟩`.
  The kernel does this two batches per grid step on the matrix unit, from a transposed copy of `b` prepared on the host
  (its narrowings to the matrix unit's input format are the identity on the extended reals); the reference does it with
  two `dot_general`s and a sum over the whole arrays. Read index by index the two results are the SAME expression —
  the same sums over the 768 coordinates, the same literal `2` — namely `Cert.PairDist.G` (Proof/Spec.lean), so the
  equality needs no algebra and never opens the finiteness precondition.

  The modules: Proof/Spec.lean (the specification), Proof/RefValue.lean (the reference's result is the specification),
  Proof/LibKeepdims.lean (two column layout operations read at an index), Proof/KernelTile.lean (one batch's tile of the
  body), Proof/KernelBlock.lean (the block the body leaves), Proof/KernelArray.lean (from blocks to the result array, and
  the kernel's run). Here the five claims are assembled.
-/
import proofs.«101520_j86912958202203_2_alg».proof.Defs
import proofs.«101520_j86912958202203_2_alg».proof.Proof.Gen.Kernel
import proofs.«101520_j86912958202203_2_alg».proof.Proof.Gen.Kernel.Skeleton
import proofs.«101520_j86912958202203_2_alg».proof.Proof.Gen.Kernel.Launch
import proofs.«101520_j86912958202203_2_alg».proof.Proof.Gen.Kernel.Points
import proofs.«101520_j86912958202203_2_alg».proof.Proof.Gen.Kernel.Frame
import proofs.«101520_j86912958202203_2_alg».proof.Proof.Gen.KernelIdeal
import proofs.«101520_j86912958202203_2_alg».proof.Proof.Gen.KernelIdeal.Skeleton
import proofs.«101520_j86912958202203_2_alg».proof.Proof.Gen.KernelIdeal.Launch
import proofs.«101520_j86912958202203_2_alg».proof.Proof.Gen.KernelIdeal.Points
import proofs.«101520_j86912958202203_2_alg».proof.Proof.Gen.KernelIdeal.Frame
import proofs.«101520_j86912958202203_2_alg».proof.Proof.Gen.ReferenceIdeal
import proofs.«101520_j86912958202203_2_alg».proof.Proof.Gen.Pre_finite_inputs
import proofs.«101520_j86912958202203_2_alg».proof.Proof.Gen.KernelIdeal.Value
import proofs.«101520_j86912958202203_2_alg».proof.Proof.Gen.ReferenceIdeal.Run
import proofs.«101520_j86912958202203_2_alg».proof.Proof.Gen.ReferenceIdeal.Read
import proofs.«101520_j86912958202203_2_alg».proof.Proof.RefValue
import proofs.«101520_j86912958202203_2_alg».proof.Proof.KernelArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewrites of the idealization: for each of the block's two batches the projection narrowed to the matrix
    unit's input format and widened back is, on the extended reals, the projection itself. -/
theorem preserves : Cert.preserves_Kernel_KernelIdeal :=
  ⟨IdealRules.truncf_extf.statement Cert.KernelIdeal.S512x768 .f32 .bf16,
    IdealRules.truncf_extf.statement Cert.KernelIdeal.S512x768 .f32 .bf16⟩

/-- From arguments that agree, the kernel's result array and the reference's both end at the specification
    `Cert.PairDist.G` of the arguments. -/
theorem algebraic : Cert.algebraic_KernelIdeal_ReferenceIdeal := by
  intro m ρ m' ρ' _ hagree
  refine ⟨fun c => Cert.PairDist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
